-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1280000 32) (main_arg2 : FVec F S64x64 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S1280000x65 : Shape := ⟨2, ![1280000, 65]⟩
abbrev S100000x65 : Shape := ⟨2, ![100000, 65]⟩
abbrev S100000x1 : Shape := ⟨2, ![100000, 1]⟩
abbrev S128x64 : Shape := ⟨2, ![128, 64]⟩
abbrev S5000x64 : Shape := ⟨2, ![5000, 64]⟩
abbrev S5000x1 : Shape := ⟨2, ![5000, 1]⟩
abbrev S5000x128 : Shape := ⟨2, ![5000, 128]⟩
abbrev S1x64 : Shape := ⟨2, ![1, 64]⟩

abbrev nBuf : Space → Nat
  | .hbm => 29
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S1x1280000, .i32⟩
  | .hbm, ⟨6, _⟩ => ⟨S1280000, .i32⟩
  | .hbm, ⟨7, _⟩ => ⟨S1x1280000, .i32⟩
  | .hbm, ⟨8, _⟩ => ⟨S1280000, .i32⟩
  | .hbm, ⟨9, _⟩ => ⟨S_, .i32⟩
  | .hbm, ⟨10, _⟩ => ⟨S1280000, .i32⟩
  | .hbm, ⟨11, _⟩ => ⟨S1280000, .i1⟩
  | .hbm, ⟨12, _⟩ => ⟨S_, .i32⟩
  | .hbm, ⟨13, _⟩ => ⟨S1280000, .i32⟩
  | .hbm, ⟨14, _⟩ => ⟨S1280000, .i32⟩
  | .hbm, ⟨15, _⟩ => ⟨S1280000, .i32⟩
  | .hbm, ⟨16, _⟩ => ⟨S1280000x1, .i32⟩
  | .hbm, ⟨17, _⟩ => ⟨S1280000x64, .f32⟩
  | .hbm, ⟨18, _⟩ => ⟨S_, .f32⟩
  | .hbm, ⟨19, _⟩ => ⟨S1280000x1, .f32⟩
  | .hbm, ⟨20, _⟩ => ⟨S1280000x65, .f32⟩
  | .hbm, ⟨21, _⟩ => ⟨S_, .f32⟩
  | .hbm, ⟨22, _⟩ => ⟨S100000x65, .f32⟩
  | .hbm, ⟨23, _⟩ => ⟨S1280000x1, .i32⟩
  | .hbm, ⟨24, _⟩ => ⟨S100000x65, .f32⟩
  | .hbm, ⟨25, _⟩ => ⟨S100000x64, .f32⟩
  | .hbm, ⟨26, _⟩ => ⟨S100000x1, .f32⟩
  | .hbm, ⟨27, _⟩ => ⟨S128x64, .f32⟩
  | .hbm, ⟨28, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S128x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S1280000x1 : S_.BroadcastsInDim S1280000x1 (![] : Fin 0 → Fin S1280000x1.rank)
  concatenates_S1280000x64_S1280000x1_S1280000x65_d1 : Shape.Concatenates [S1280000x64, S1280000x1] S1280000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  concatenates_S64x64_S64x64_S128x64_d0 : Shape.Concatenates [S64x64, S64x64] S128x64 0
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  concatenates_S5000x64_S5000x64_S5000x128_d1 : Shape.Concatenates [S5000x64, S5000x64] S5000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1280000x1_S1280000x64_1_0_n_n_0_1_164_wf : GatherDims.WF S100000x64 S1280000x1 S1280000x64 [1] [0] [] [0] [] 1 ![1, 64]
  scatter_S100000x65_S1280000x1_S1280000x65_1_0_0_1_wf : ScatterDims.WF S100000x65 S1280000x1 S1280000x65 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x65_S1280000x1_S1280000x65_1_0_0_1 : ScatterDims S100000x65 S1280000x1 S1280000x65 where
  updateWindowDims := [1]
  insertedWindowDims := [0]
  scatterDimsToOperandDims := [0]
  indexVectorDim := 1
  wf := scatter_S100000x65_S1280000x1_S1280000x65_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S1x1280000, .i32⟩
  | .hbm, ⟨6, _⟩ => ⟨S1280000, .i32⟩
  | .hbm, ⟨7, _⟩ => ⟨S1x1280000, .i32⟩
  | .hbm, ⟨8, _⟩ => ⟨S1280000, .i32⟩
  | .hbm, ⟨9, _⟩ => ⟨S_, .i32⟩
  | .hbm, ⟨10, _⟩ => ⟨S1280000, .i32⟩
  | .hbm, ⟨11, _⟩ => ⟨S1280000, .i1⟩
  | .hbm, ⟨12, _⟩ => ⟨S_, .i32⟩
  | .hbm, ⟨13, _⟩ => ⟨S1280000, .i32⟩
  | .hbm, ⟨14, _⟩ => ⟨S1280000, .i32⟩
  | .hbm, ⟨15, _⟩ => ⟨S1280000, .i32⟩
  | .hbm, ⟨16, _⟩ => ⟨S1280000x1, .i32⟩
  | .hbm, ⟨17, _⟩ => ⟨S1280000x64, .f32⟩
  | .hbm, ⟨18, _⟩ => ⟨S_, .f32⟩
  | .hbm, ⟨19, _⟩ => ⟨S100000x64, .f32⟩
  | .hbm, ⟨20, _⟩ => ⟨S1280000x1, .i32⟩
  | .hbm, ⟨21, _⟩ => ⟨S100000x64, .f32⟩
  | .hbm, ⟨22, _⟩ => ⟨S_, .f32⟩
  | .hbm, ⟨23, _⟩ => ⟨S1280000, .f32⟩
  | .hbm, ⟨24, _⟩ => ⟨S_, .f32⟩
  | .hbm, ⟨25, _⟩ => ⟨S100000, .f32⟩
  | .hbm, ⟨26, _⟩ => ⟨S1280000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  scatter_S100000_S1280000x1_S1280000_n_0_0_1_wf : ScatterDims.WF S100000 S1280000x1 S1280000 [] [0] [0] 1
  dot_S100000x64_S64x64_S100000x64_1_0_0_1_n_n_wf : DotDims.WF S100000x64 S64x64 S100000x64 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibSegmentSum.lean ====
/-
  The host's accumulating float scatter over ROW indices, read at one element, at the ideal instance.

  `jax.ops.segment_sum(data, ids, num_segments = N)` lowers to a `stablehlo.scatter` with an `add` body whose
  scatter indices are the ids as an [E, 1] column: update row `e` is added onto operand row `ids[e]`, column by
  column, and a row whose id (read signed) is outside [0, N) is dropped. On the extended reals the result is an exact
  sum, so element (r, c) of the result is the operand's element plus the sum over ALL e of "update (e, c) if
  ids[e] = r, else 0". Two shapes of it are read here: a rank-2 operand [N, C] with [E, C] updates (`rows_apply`),
  and a rank-1 operand [N] with [E] updates (`flat_apply`). Both right-hand sides are the same kind of sum over
  `Fin E`, which is what lets a proof compare a scatter of concatenated columns with the scatters of the parts.
-/
import Idealize.ShloMosaic.PureOps.Ideal
import Idealize.ShloMosaic.Lib.ValueIdx

noncomputable section

open scoped BigOperators

namespace Cert.Lib.SegmentSum

open Idealize.ShloMosaic Idealize.ShloMosaic.ValueIdx

/-! ## When an update element lands on a given operand element -/

/-- An update element lands on operand element `i` exactly when, on every operand axis, the window's start plus the
    element's window coordinate is `i`'s coordinate: inside the operand then, and nowhere else. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      intro a
      have e := congrArg (fun f : s.Idx => (f a).val) (Option.some.inj h)
      have := hh a
      simp only at e
      omega
    · exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    have := h a
    show (d.start j idx a + d.window j a).toNat = (i a).val
    omega

/-- The scatter-index word that names the operand row of update row `e`, read signed. -/
abbrev rowOf {E w : Nat} (ids : IVec ⟨2, ![E, 1]⟩ w) (e : Fin E) : Int := (ids (ix2 e (0 : Fin 1))).toInt

/-- The sum of the entries `f e` over the update rows `e` whose id is `r`: one segment's sum. -/
def segSum {E N w : Nat} (ids : IVec ⟨2, ![E, 1]⟩ w) (f : Fin E → EReal) (r : Fin N) : EReal :=
  ∑ e : Fin E, if rowOf ids e = (r.val : Int) then f e else 0

theorem mem0 : (0 : Fin 2) ∈ ([0] : List (Fin 2)) := by decide
theorem nmem1 : (1 : Fin 2) ∉ ([0] : List (Fin 2)) := by decide
theorem kept0 : (0 : Fin 2) ∉ (List.finRange 2).filter (· ∉ ([0] : List (Fin 2))) := by decide
theorem kept1 : (1 : Fin 2) ∈ (List.finRange 2).filter (· ∉ ([0] : List (Fin 2))) := by decide
theorem mem0' : (0 : Fin 1) ∈ ([0] : List (Fin 1)) := by decide
theorem kept0' : (0 : Fin 1) ∉ (List.finRange 1).filter (· ∉ ([0] : List (Fin 1))) := by decide

/-! ## A rank-2 operand: rows of [E, C] updates added onto rows of [N, C] -/

section Rows
variable {N C E w : Nat} (wf : ScatterDims.WF ⟨2, ![N, C]⟩ ⟨2, ![E, 1]⟩ ⟨2, ![E, C]⟩ [1] [0] [0] 1)

/-- The dimension numbers of a row scatter: the updates' axis 1 is the window, operand axis 0 is inserted and is the
    one the index names, the index vector sits on the indices' axis 1. -/
abbrev rowsDims : ScatterDims ⟨2, ![N, C]⟩ ⟨2, ![E, 1]⟩ ⟨2, ![E, C]⟩ := ⟨[1], [0], [0], 1, wf⟩

theorem rows_start0 (ids : IVec ⟨2, ![E, 1]⟩ w) (e : Fin E) (c : Fin C) :
    (rowsDims wf).start (ix2 e c) ids 0 = rowOf ids e := by
  unfold ScatterDims.start
  refine (dif_pos mem0).trans ?_
  refine congrArg (fun z => (ids z).toInt) ?_
  funext b
  match b with
  | ⟨0, _⟩ => rfl
  | ⟨1, _⟩ => rfl

theorem rows_start1 (ids : IVec ⟨2, ![E, 1]⟩ w) (e : Fin E) (c : Fin C) :
    (rowsDims wf).start (ix2 e c) ids 1 = 0 := by
  unfold ScatterDims.start
  exact dif_neg nmem1

theorem rows_window0 (e : Fin E) (c : Fin C) : (rowsDims wf).window (ix2 e c) 0 = 0 := by
  unfold ScatterDims.window
  exact dif_neg kept0

theorem rows_window1 (e : Fin E) (c : Fin C) : (rowsDims wf).window (ix2 e c) 1 = c.val := by
  unfold ScatterDims.window
  exact (dif_pos kept1).trans rfl

/-- Update element (e, c) lands on operand element (r, c') exactly when row `e`'s id is `r` and the columns agree. -/
theorem rows_resultIdx (ids : IVec ⟨2, ![E, 1]⟩ w) (e : Fin E) (c : Fin C) (r : Fin N) (c' : Fin C) :
    (rowsDims wf).resultIdx? (ix2 e c) ids = some (ix2 r c') ↔ rowOf ids e = (r.val : Int) ∧ c = c' := by
  rw [resultIdx?_eq_some_iff]
  constructor
  · intro h
    have h0 : rowOf ids e + ((0 : Nat) : Int) = (r.val : Int) := by
      have := h 0; rw [rows_start0, rows_window0] at this; exact this
    have h1 : (0 : Int) + (c.val : Int) = (c'.val : Int) := by
      have := h 1; rw [rows_start1, rows_window1] at this; exact this
    exact ⟨by omega, Fin.ext (by omega)⟩
  · rintro ⟨hr, rfl⟩ a
    match a with
    | ⟨0, _⟩ =>
      show (rowsDims wf).start (ix2 e c) ids 0 + ((rowsDims wf).window (ix2 e c) 0 : Int) = (r.val : Int)
      rw [rows_start0, rows_window0]; omega
    | ⟨1, _⟩ =>
      show (rowsDims wf).start (ix2 e c) ids 1 + ((rowsDims wf).window (ix2 e c) 1 : Int) = (c.val : Int)
      rw [rows_start1, rows_window1]; omega

/-- ELEMENT (r, c) of a row scatter-add: the operand's element plus the segment sum of column `c` of the updates. -/
theorem rows_apply (x : (⟨2, ![N, C]⟩ : Shape).Idx → EReal) (ids : IVec ⟨2, ![E, 1]⟩ w)
    (upd : (⟨2, ![E, C]⟩ : Shape).Idx → EReal) (r : Fin N) (c : Fin C) :
    Ideal.hostScatterAdd (rowsDims wf) x ids upd (ix2 r c) = x (ix2 r c) + segSum ids (fun e => upd (ix2 e c)) r := by
  unfold Ideal.hostScatterAdd segSum
  refine congrArg (x (ix2 r c) + ·) ?_
  rw [Finset.sum_filter, sum_idx2]
  refine Finset.sum_congr rfl fun e _ => ?_
  simp only [rows_resultIdx]
  by_cases hit : rowOf ids e = (r.val : Int)
  · simp only [hit, true_and]
    rw [Finset.sum_ite_eq' Finset.univ c (fun c' => upd (ix2 e c'))]
    simp
  · simp [hit]

/-- The same for the host operation as a program prints it, with the program's own record of these dimension numbers. -/
theorem rows_apply_host (d : ScatterDims ⟨2, ![N, C]⟩ ⟨2, ![E, 1]⟩ ⟨2, ![E, C]⟩) (hd : d = rowsDims wf)
    (x : FVec Ideal ⟨2, ![N, C]⟩ .f32) (ids : IVec ⟨2, ![E, 1]⟩ w) (upd : FVec Ideal ⟨2, ![E, C]⟩ .f32) (r : Fin N) (c : Fin C) :
    Host.scatterAdd d x ids upd (ix2 r c) = x (ix2 r c) + segSum ids (fun e => upd (ix2 e c)) r := by
  subst hd
  exact rows_apply wf x ids upd r c

end Rows

/-! ## A rank-1 operand: [E] updates added onto [N] -/

section Flat
variable {N E w : Nat} (wf : ScatterDims.WF ⟨1, ![N]⟩ ⟨2, ![E, 1]⟩ ⟨1, ![E]⟩ [] [0] [0] 1)

/-- The dimension numbers of a scatter of scalars: no window axis, the operand's one axis inserted and named by the index. -/
abbrev flatDims : ScatterDims ⟨1, ![N]⟩ ⟨2, ![E, 1]⟩ ⟨1, ![E]⟩ := ⟨[], [0], [0], 1, wf⟩

theorem flat_start0 (ids : IVec ⟨2, ![E, 1]⟩ w) (e : Fin E) :
    (flatDims wf).start (ix1 e) ids 0 = rowOf ids e := by
  unfold ScatterDims.start
  refine (dif_pos mem0').trans ?_
  refine congrArg (fun z => (ids z).toInt) ?_
  funext b
  match b with
  | ⟨0, _⟩ => rfl
  | ⟨1, _⟩ => rfl

theorem flat_window0 (e : Fin E) : (flatDims wf).window (ix1 e) 0 = 0 := by
  unfold ScatterDims.window
  exact dif_neg kept0'

/-- Update element `e` lands on operand element `r` exactly when its id is `r`. -/
theorem flat_resultIdx (ids : IVec ⟨2, ![E, 1]⟩ w) (e : Fin E) (r : Fin N) :
    (flatDims wf).resultIdx? (ix1 e) ids = some (ix1 r) ↔ rowOf ids e = (r.val : Int) := by
  rw [resultIdx?_eq_some_iff]
  constructor
  · intro h
    have h0 : rowOf ids e + ((0 : Nat) : Int) = (r.val : Int) := by
      have := h 0; rw [flat_start0, flat_window0] at this; exact this
    omega
  · intro hr a
    match a with
    | ⟨0, _⟩ =>
      show (flatDims wf).start (ix1 e) ids 0 + ((flatDims wf).window (ix1 e) 0 : Int) = (r.val : Int)
      rw [flat_start0, flat_window0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- ELEMENT r of a scatter-add of scalars: the operand's element plus the segment sum of the updates. -/
theorem flat_apply (x : (⟨1, ![N]⟩ : Shape).Idx → EReal) (ids : IVec ⟨2, ![E, 1]⟩ w)
    (upd : (⟨1, ![E]⟩ : Shape).Idx → EReal) (r : Fin N) :
    Ideal.hostScatterAdd (flatDims wf) x ids upd (ix1 r) = x (ix1 r) + segSum ids (fun e => upd (ix1 e)) r := by
  unfold Ideal.hostScatterAdd segSum
  refine congrArg (x (ix1 r) + ·) ?_
  rw [Finset.sum_filter, sum_idx1]
  refine Finset.sum_congr rfl fun e _ => ?_
  simp only [flat_resultIdx]

/-- The same for the host operation as a program prints it, with the program's own record of these dimension numbers. -/
theorem flat_apply_host (d : ScatterDims ⟨1, ![N]⟩ ⟨2, ![E, 1]⟩ ⟨1, ![E]⟩) (hd : d = flatDims wf)
    (x : FVec Ideal ⟨1, ![N]⟩ .f32) (ids : IVec ⟨2, ![E, 1]⟩ w) (upd : FVec Ideal ⟨1, ![E]⟩ .f32) (r : Fin N) :
    Host.scatterAdd d x ids upd (ix1 r) = x (ix1 r) + segSum ids (fun e => upd (ix1 e)) r := by
  subst hd
  exact flat_apply wf x ids upd r

end Flat

end Cert.Lib.SegmentSum

end
-- ==== Proof.SageSpec.lean ====
/-
  The function both programs compute, on the extended reals: one GraphSAGE layer with mean aggregation.

  For node r and output feature q:
      out[r, q] = Σ_k mean[r, k] · W[k, q] + Σ_k x[r, k] · RW[k, q] + b[q],   k over the 64 input features,
  where mean[r, k] = summed[r, k] / max(count[r], 1), summed[r, k] is the sum of msg[e, k] over the edges e whose
  target id is r, and count[r] is the number of those edges (a sum of ones). The messages msg (the gathered rows of x)
  and the target ids are the same for both programs, so they stay parameters here. The word for 1.0 and the word for
  0.0 (the value the scatters start from) are kept as the programs spell them and are never evaluated.
-/
import Idealize.ShloMosaic.PureOps.Ideal
import Idealize.ShloMosaic.Lib.ValueIdx
import proofs.«121801_j58308476011187_2_alg».proof.Proof.LibSegmentSum

noncomputable section

open scoped BigOperators

namespace Cert.Sage

open Idealize.ShloMosaic Idealize.ShloMosaic.ValueIdx Cert.Lib.SegmentSum

/-- A matrix of extended reals with literal extents. -/
abbrev Mat (a b : Nat) := (⟨2, ![a, b]⟩ : Shape).Idx → EReal
/-- A vector of extended reals with a literal extent. -/
abbrev Vc (a : Nat) := (⟨1, ![a]⟩ : Shape).Idx → EReal

/-- The float word 1.0, as an extended real. -/
abbrev one : EReal := Ideal.ofBits .f32 0x3F800000#32
/-- The float word +0.0, as an extended real: what both programs' scatters start from. -/
abbrev zero : EReal := Ideal.ofBits .f32 0x00000000#32

/-- The dense stage at (r, q), from the per-node sums `S` and edge counts `cnt`: normalise, project the mean through
    `W`, project the node's own features through `RW`, add the bias. -/
def denseAt (S : Mat 100000 64) (cnt : Fin 100000 → EReal) (x : Mat 100000 64) (W RW : Mat 64 64) (b : Vc 64)
    (r : Fin 100000) (q : Fin 64) : EReal :=
  (∑ k : Fin 64, Ideal.div (S (ix2 r k)) (max (cnt r) one) * W (ix2 k q) + ∑ k : Fin 64, x (ix2 r k) * RW (ix2 k q)) + b (ix1 q)

/-- summed[r, k]: the start value plus the sum of column k of the messages over the edges into r. -/
def summed (ids : IVec ⟨2, ![1280000, 1]⟩ 32) (msg : Mat 1280000 64) (r : Fin 100000) (k : Fin 64) : EReal :=
  zero + segSum ids (fun e => msg (ix2 e k)) r

/-- count[r]: the start value plus a one for every edge into r. -/
def count (ids : IVec ⟨2, ![1280000, 1]⟩ 32) (r : Fin 100000) : EReal :=
  zero + segSum ids (fun _ => one) r

/-- The layer's output array. -/
def out (ids : IVec ⟨2, ![1280000, 1]⟩ 32) (msg : Mat 1280000 64) (x : Mat 100000 64) (W RW : Mat 64 64) (b : Vc 64) :
    Mat 100000 64 := fun i =>
  denseAt (fun j => summed ids msg (j 0) (j 1)) (count ids) x W RW b (i 0) (i 1)

end Cert.Sage

end
-- ==== Proof.Payload.lean ====
/-
  The kernel body's one stored value, read at an entry (p, q) of the 5000 × 64 output tile.

  The body normalises the tile of per-node sums by max(count, 1) (the count a 5000 × 1 column spread along each row),
  sets that beside the tile of x along the feature axis (5000 × 128), multiplies by the stacked weights (128 × 64) into a
  zero accumulator and adds the bias row. Read at (p, q) the product is a sum over the 128 stacked features, which splits
  into the first 64 (the normalised sums against the top half of the weights) and the last 64 (x against the bottom
  half). The changes of float format are the identity on the extended reals.
-/
import proofs.«121801_j58308476011187_2_alg».proof.Proof.Gen.KernelIdeal.Skeleton
import proofs.«121801_j58308476011187_2_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The layout operations of the body at an entry -/

/-- Two 5000 × 64 tiles set side by side, read in the LEFT half: the first tile's entry. -/
theorem beside_left (a b : FVec Ideal S5000x64 .f32) (p : Fin 5000) (k : Fin 64) :
    concatenate S5000x128 1 [⟨S5000x64, a⟩, ⟨S5000x64, b⟩] concatenates_S5000x64_S5000x64_S5000x128_d1
      (ix2 p (⟨k.val, by have := k.isLt; omega⟩ : Fin 128)) = a (ix2 p k) :=
  concatenate_pair_apply_left (1 : Fin S5000x128.rank) a b concatenates_S5000x64_S5000x64_S5000x128_d1 _ rfl (ix2 p k)
    (fun b => by match b with | ⟨0, _⟩ => rfl | ⟨1, _⟩ => rfl)

/-- … and in the RIGHT half: the second tile's entry, 64 columns back. -/
theorem beside_right (a b : FVec Ideal S5000x64 .f32) (p : Fin 5000) (k : Fin 64) :
    concatenate S5000x128 1 [⟨S5000x64, a⟩, ⟨S5000x64, b⟩] concatenates_S5000x64_S5000x64_S5000x128_d1
      (ix2 p (⟨64 + k.val, by have := k.isLt; omega⟩ : Fin 128)) = b (ix2 p k) :=
  concatenate_pair_apply_right (1 : Fin S5000x128.rank) a b concatenates_S5000x64_S5000x64_S5000x128_d1 _ rfl rfl (ix2 p k)
    (fun b hb => by
      match b with
      | ⟨0, _⟩ => rfl
      | ⟨1, _⟩ => exact absurd rfl hb)
    (by show k.val + 64 = 64 + k.val; omega)

/-- A 5000 × 1 column spread along each row, read at (p, k): the column's entry of row p. -/
theorem column_spread (v : FVec Ideal S5000x1 .f32) (p : Fin 5000) (k : Fin 64) :
    broadcastTo S5000x64 v broadcasts_S5000x1_S5000x64 (ix2 p k) = v (ix2 p (0 : Fin 1)) :=
  broadcastTo_apply v broadcasts_S5000x1_S5000x64 _ (ix2 p (0 : Fin 1)) (fun a => by
    match a with
    | ⟨0, _⟩ => show p.val = if (5000 : Nat) = 1 then 0 else p.val; rw [if_neg (by decide)]
    | ⟨1, _⟩ => show 0 = if (1 : Nat) = 1 then 0 else k.val; rw [if_pos rfl])

/-- The bias vector as a 1 × 64 row spread down the rows, read at (p, q): the bias of feature q. -/
theorem bias_spread (v : FVec Ideal S64 .f32) (p : Fin 5000) (q : Fin 64) :
    broadcastTo S5000x64 (shapeCast S1x64 v shapeCasts_S64_S1x64) broadcasts_S1x64_S5000x64 (ix2 p q) = v (ix1 q) := by
  rw [broadcastTo_1b_ab_apply (shapeCast S1x64 v shapeCasts_S64_S1x64) broadcasts_S1x64_S5000x64 p q]
  exact shapeCast_a_1a_apply v shapeCasts_S64_S1x64 (0 : Fin 1) q

/-! ## The product at an entry: a sum over the 128 stacked features -/

theorem lhs0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem rhs1 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The tile product into the zero accumulator, at (p, q): the sum over the stacked feature k of l[p, k] · r[k, q]. -/
theorem product_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs0 _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl _ _).trans hk
    | ⟨1, _⟩ => exact rhs1 _ _)
  rw [el, er]

/-- A sum over 128 stacked features is the sum over the first 64 plus the sum over the last 64. -/
theorem sum_halves (f : Fin 128 → EReal) :
    ∑ k : Fin 128, f k = ∑ k : Fin 64, f ⟨k.val, by have := k.isLt; omega⟩ + ∑ k : Fin 64, f ⟨64 + k.val, by have := k.isLt; omega⟩ :=
  Fin.sum_univ_add (a := 64) (b := 64) f

/-! ## The stored value at an entry -/

/-- ENTRY (p, q) of the body's stored tile, from the loaded tiles: `cnt` the counts' column, `s` the sums, `x` the node
    features, `w` the stacked weights (top half against the normalised sums, bottom half against x), `b` the bias. -/
theorem stored_apply (cnt : Vec Ideal S5000x1 .f32) (s : Vec Ideal S5000x64 .f32) (x : Vec Ideal S5000x64 .f32)
    (w : Vec Ideal S128x64 .f32) (b : Vec Ideal S64 .f32) (p : Fin 5000) (q : Fin 64) :
    k0_pay1 cnt s x w b (ix2 p q)
      = (∑ k : Fin 64, Ideal.div (s (ix2 p k)) (max (cnt (ix2 p (0 : Fin 1))) Sage.one) * w (ix2 (⟨k.val, by have := k.isLt; omega⟩ : Fin 128) q)
          + ∑ k : Fin 64, x (ix2 p k) * w (ix2 (⟨64 + k.val, by have := k.isLt; omega⟩ : Fin 128) q))
        + b (ix1 q) := by
  unfold k0_pay1
  refine (addf_apply _ _ (ix2 p q)).trans ?_
  refine congrArg₂ (· + ·) ?_ (bias_spread b p q)
  refine (product_apply _ _ p q).trans ?_
  refine (sum_halves _).trans ?_
  refine congrArg₂ (· + ·) (Finset.sum_congr rfl fun k _ => ?_) (Finset.sum_congr rfl fun k _ => ?_)
  · refine congrArg₂ (· * ·) ?_ ?_
    · refine (truncf_apply (ψ := .bf16) (φ := .f32) _ bitsLt_bf16_f32 _).trans ?_
      refine (beside_left _ _ p k).trans ?_
      refine (divf_apply _ _ _).trans ?_
      refine congrArg₂ Ideal.div ?_ ?_
      · rw [shapeCast_self]
      · refine (column_spread _ p k).trans ?_
        refine (maximumf_apply _ _ _).trans ?_
        rw [shapeCast_self]
        rfl
    · refine (truncf_apply (ψ := .bf16) (φ := .f32) _ bitsLt_bf16_f32 _).trans ?_
      rw [shapeCast_self]
  · refine congrArg₂ (· * ·) ?_ ?_
    · refine (truncf_apply (ψ := .bf16) (φ := .f32) _ bitsLt_bf16_f32 _).trans ?_
      exact beside_right _ _ p k
    · refine (truncf_apply (ψ := .bf16) (φ := .f32) _ bitsLt_bf16_f32 _).trans ?_
      rw [shapeCast_self]

end Cert.KernelIdeal.Tile

end
-- ==== Proof.HostSide.lean ====
/-
  What the kernel's launch finds in the arrays its windows stage, read at an entry.

  Before the launch the program gathers the messages, appends a column of ones (65 columns), scatters that onto the
  target ids in ONE accumulating scatter, and slices the result back into the 64 sum columns and the one count column;
  it also stacks the two weight matrices (128 rows). The accumulating scatter adds column by column, so column k < 64
  of the 65-column result is the segment sum of message column k, and column 64 is the segment sum of ones: the
  per-node sums and counts the layer's function `Sage.out` is written over. The ids (`ids`) and the gathered
  messages (`msg`) are the arrays the program computed for them, kept whole.
-/
import proofs.«121801_j58308476011187_2_alg».proof.Proof.Gen.KernelIdeal.Frame
import proofs.«121801_j58308476011187_2_alg».proof.Proof.SageSpec
import proofs.«121801_j58308476011187_2_alg».proof.Proof.LibSegmentSum
import Idealize.ShloMosaic.Lib.StableHlo.Run
import Idealize.ShloMosaic.Lib.Pipeline.Value
import Idealize.ShloMosaic.Lib.ValueLayout
import Idealize.ShloMosaic.Lib.ValueIdx

noncomputable section

open scoped BigOperators

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx Cert.Lib.SegmentSum

variable (m : (ℓ : Loc nD τ sig) → Buf (Elt Ideal) ℓ) (c : Dev nD)

/-- The target ids as the [E, 1] column the scatter reads. -/
abbrev ids : IVec ⟨2, ![1280000, 1]⟩ 32 := V m c main_v14
/-- The gathered messages. -/
abbrev msg : Sage.Mat 1280000 64 := V m c main_v10

/-- The column of ones set beside the messages. -/
abbrev onesCol : (⟨2, ![1280000, 1]⟩ : Shape).Idx → EReal :=
  broadcastInDim S1280000x1 ![] bcast_S_S1280000x1 (constant (F := Ideal) S_ .f32 0x3F800000#32)

/-- The messages with the column of ones appended: 65 columns. -/
abbrev msgOnes : (⟨2, ![1280000, 65]⟩ : Shape).Idx → EReal :=
  concatenate S1280000x65 1 [⟨S1280000x64, msg m c⟩, ⟨S1280000x1, onesCol⟩] concatenates_S1280000x64_S1280000x1_S1280000x65_d1

/-- The one accumulating scatter's result: sums in columns 0–63, counts in column 64. -/
def scattered : (⟨2, ![100000, 65]⟩ : Shape).Idx → EReal :=
  Host.scatterAdd scatter_S100000x65_S1280000x1_S1280000x65_1_0_0_1
    (broadcastInDim S100000x65 ![] bcast_S_S100000x65 (constant (F := Ideal) S_ .f32 0x00000000#32))
    (ids m c) (msgOnes m c)

/-! ## The staged arrays as the host operations' terms -/

theorem sums_eq : (V m c main_v16 : S100000x64.Idx → EReal)
    = extractStridedSlice S100000x64 ![0, 0] (scattered m c) slices_S100000x65_S100000x64_0_0 := by
  unfold scattered
  dsimp only [Gen.V, Gen.hostOps0]
  after_results
  rfl

theorem counts_eq : (V m c main_v17 : S100000x1.Idx → EReal)
    = extractStridedSlice S100000x1 ![0, 64] (scattered m c) slices_S100000x65_S100000x1_0_64 := by
  unfold scattered
  dsimp only [Gen.V, Gen.hostOps0]
  after_results
  rfl

theorem weights_eq : (V m c main_v18 : S128x64.Idx → EReal)
    = concatenate S128x64 0 [⟨S64x64, m ((c : Thread nD τ).loc main_arg2)⟩, ⟨S64x64, m ((c : Thread nD τ).loc main_arg3)⟩]
        concatenates_S64x64_S64x64_S128x64_d0 := by
  dsimp only [Gen.V, Gen.hostOps0]
  after_results

/-! ## Layout operations at an entry -/

/-- A splat of one float word reads that word's value everywhere. -/
theorem splat_apply {t : Shape} (h : S_.BroadcastsInDim t (![] : Fin 0 → Fin t.rank)) (b : BitVec 32) (j : t.Idx) :
    broadcastInDim t ![] h (constant (F := Ideal) S_ .f32 b) j = Ideal.ofBits .f32 b :=
  (broadcastInDim_apply _ h _ j (fun a => a.elim0) (fun a => a.elim0)).trans (constant_apply (s := S_) (φ := .f32) b _)

/-- Messages beside ones, read in a message column. -/
theorem msgOnes_left (e : Fin 1280000) (k : Fin 64) :
    msgOnes m c (ix2 e (⟨k.val, by have := k.isLt; omega⟩ : Fin 65)) = msg m c (ix2 e k) :=
  concatenate_pair_apply_left (1 : Fin S1280000x65.rank) (msg m c) onesCol concatenates_S1280000x64_S1280000x1_S1280000x65_d1 _ rfl
    (ix2 e k) (fun b => by match b with | ⟨0, _⟩ => rfl | ⟨1, _⟩ => rfl)

/-- Messages beside ones, read in the last column: a one. -/
theorem msgOnes_right (e : Fin 1280000) :
    msgOnes m c (ix2 e (⟨64, by decide⟩ : Fin 65)) = Sage.one :=
  (concatenate_pair_apply_right (1 : Fin S1280000x65.rank) (msg m c) onesCol concatenates_S1280000x64_S1280000x1_S1280000x65_d1 _ rfl rfl
    (ix2 e (0 : Fin 1))
    (fun b hb => by
      match b with
      | ⟨0, _⟩ => rfl
      | ⟨1, _⟩ => exact absurd rfl hb)
    (by show 0 + 64 = 64; rfl)).trans (splat_apply bcast_S_S1280000x1 _ _)

/-- ENTRY (r, c') of the scatter's result: the start value plus the segment sum of column c' of messages-beside-ones. -/
theorem scattered_apply (r : Fin 100000) (c' : Fin 65) :
    scattered m c (ix2 r c') = Sage.zero + segSum (ids m c) (fun e => msgOnes m c (ix2 e c')) r := by
  unfold scattered
  refine (rows_apply_host scatter_S100000x65_S1280000x1_S1280000x65_1_0_0_1_wf scatter_S100000x65_S1280000x1_S1280000x65_1_0_0_1 rfl
    _ (ids m c) (msgOnes m c) r c').trans ?_
  rw [splat_apply]

/-! ## The three staged arrays at an entry -/

/-- The staged sums at (r, k): `Sage.summed`. -/
theorem sums_apply (r : Fin 100000) (k : Fin 64) :
    (V m c main_v16 : S100000x64.Idx → EReal) (ix2 r k) = Sage.summed (ids m c) (msg m c) r k := by
  rw [sums_eq]
  refine (slice2_axis1_apply 0 (scattered m c) slices_S100000x65_S100000x64_0_0 r k (⟨k.val, by have := k.isLt; omega⟩ : Fin 65)
    (Nat.zero_add _).symm).trans ?_
  rw [scattered_apply]
  unfold Sage.summed
  refine congrArg (Sage.zero + ·) ?_
  refine congrArg (fun f => segSum (ids m c) f r) (funext fun e => msgOnes_left m c e k)

/-- The staged counts at (r, 0): `Sage.count`. -/
theorem counts_apply (r : Fin 100000) :
    (V m c main_v17 : S100000x1.Idx → EReal) (ix2 r (0 : Fin 1)) = Sage.count (ids m c) r := by
  rw [counts_eq]
  refine (slice2_axis1_apply 64 (scattered m c) slices_S100000x65_S100000x1_0_64 r (0 : Fin 1) (⟨64, by decide⟩ : Fin 65) rfl).trans ?_
  rw [scattered_apply]
  unfold Sage.count
  refine congrArg (Sage.zero + ·) ?_
  refine congrArg (fun f => segSum (ids m c) f r) (funext fun e => msgOnes_right m c e)

/-- The stacked weights, top half: `weight`. -/
theorem weights_top (k : Fin 64) (q : Fin 64) :
    (V m c main_v18 : S128x64.Idx → EReal) (ix2 (⟨k.val, by have := k.isLt; omega⟩ : Fin 128) q)
      = m ((c : Thread nD τ).loc main_arg2) (ix2 k q) := by
  rw [weights_eq]
  exact concatenate_pair_apply_left (0 : Fin S128x64.rank) _ _ concatenates_S64x64_S64x64_S128x64_d0 _ rfl (ix2 k q)
    (fun b => by match b with | ⟨0, _⟩ => rfl | ⟨1, _⟩ => rfl)

/-- The stacked weights, bottom half: `root_weight`. -/
theorem weights_bottom (k : Fin 64) (q : Fin 64) :
    (V m c main_v18 : S128x64.Idx → EReal) (ix2 (⟨64 + k.val, by have := k.isLt; omega⟩ : Fin 128) q)
      = m ((c : Thread nD τ).loc main_arg3) (ix2 k q) := by
  rw [weights_eq]
  exact concatenate_pair_apply_right (0 : Fin S128x64.rank) _ _ concatenates_S64x64_S64x64_S128x64_d0 _ rfl rfl (ix2 k q)
    (fun b hb => by
      match b with
      | ⟨0, _⟩ => exact absurd rfl hb
      | ⟨1, _⟩ => rfl)
    (by show k.val + 64 = 64 + k.val; omega)

end Cert.KernelIdeal.HostSide

end
-- ==== Proof.KernelValue.lean ====
/-
  The kernel's output array after the run is the layer's function `Sage.out` of the argument arrays.

  The grid has 20 points; point t stages rows [5000·t, 5000·t + 5000) of the per-node sums, of the counts and of x, the
  whole stacked weights and the whole bias, and writes back rows [5000·t, 5000·t + 5000) of the output. Entry (p, q) of
  what point t writes back is the body's stored value at (p, q) of those tiles, i.e. the layer's function at row
  5000·t + p: each staged tile read at (p, k) is its array at (5000·t + p, k), the sums and counts there are the
  segment sums, and the two halves of the stacked weights are `weight` and `root_weight`. The 20 blocks tile the
  100000 rows, so the whole array ends at that function.
-/
import proofs.«121801_j58308476011187_2_alg».proof.Proof.Gen.KernelIdeal.Value
import proofs.«121801_j58308476011187_2_alg».proof.Proof.Payload
import proofs.«121801_j58308476011187_2_alg».proof.Proof.HostSide
import proofs.«121801_j58308476011187_2_alg».proof.Proof.SageSpec

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- What the output array ends holding: the layer's function of the ids and messages the program computed and of the
    argument arrays. -/
def result (c : Dev nD) : S100000x64.Idx → EReal :=
  Sage.out (HostSide.ids m c) (HostSide.msg m c) (m ((c : Thread nD τ).loc main_arg0)) (m ((c : Thread nD τ).loc main_arg2))
    (m ((c : Thread nD τ).loc main_arg3)) (m ((c : Thread nD τ).loc main_arg4))

/-- The printed index maps over the 20 grid points: the three row-tiled inputs and the output are at block row t, the
    stacked weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 ∧ t.val < 20 :=
  (by decide +kernel : ∀ t : Fin grid0.N, _)

/-- Every block row of the output is some point's. -/
theorem idx_onto : ∀ b : Fin 20, ∃ t : Fin cfg0.N, win0_5.index t = ![b.val, 0] :=
  (by decide +kernel : ∀ b : Fin 20, ∃ t : Fin grid0.N, win0_5.index t = ![b.val, 0])

/-! ## Each staged tile read at an entry is its array at the tile's place -/

theorem emb_sums (t : Fin cfg0.N) (p : Fin 5000) (r : Fin 100000) (hr : r.val = t.val * 5000 + p.val) (k : Fin 64) :
    ((cfg0.win 0).blk t).view.emb (ix2 p k) = (ix2 r k : S100000x64.Idx) := by
  obtain ⟨e0, e1, -⟩ := idx_facts t
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

theorem emb_counts (t : Fin cfg0.N) (p : Fin 5000) (r : Fin 100000) (hr : r.val = t.val * 5000 + p.val) :
    ((cfg0.win 1).blk t).view.emb (ix2 p (0 : Fin 1)) = (ix2 r (0 : Fin 1) : S100000x1.Idx) := by
  obtain ⟨-, -, e0, e1, -⟩ := idx_facts t
  funext a; apply Fin.ext
  match a with
  | ⟨0, _⟩ => show win0_1.index t (0 : Fin 2) * 5000 + 1 * p.val = r.val; omega
  | ⟨1, _⟩ => show win0_1.index t (1 : Fin 2) * 1 + 1 * 0 = 0; omega

theorem emb_x (t : Fin cfg0.N) (p : Fin 5000) (r : Fin 100000) (hr : r.val = t.val * 5000 + p.val) (k : Fin 64) :
    ((cfg0.win 2).blk t).view.emb (ix2 p k) = (ix2 r k : S100000x64.Idx) := by
  obtain ⟨-, -, -, -, e0, e1, -⟩ := idx_facts t
  funext a; apply Fin.ext
  match a with
  | ⟨0, _⟩ => show win0_2.index t (0 : Fin 2) * 5000 + 1 * p.val = r.val; omega
  | ⟨1, _⟩ => show win0_2.index t (1 : Fin 2) * 64 + 1 * k.val = k.val; omega

theorem emb_weights (t : Fin cfg0.N) (k : Fin 128) (q : Fin 64) :
    ((cfg0.win 3).blk t).view.emb (ix2 k q) = (ix2 k q : S128x64.Idx) := by
  obtain ⟨-, -, -, -, -, -, e0, e1, -⟩ := idx_facts t
  funext a; apply Fin.ext
  match a with
  | ⟨0, _⟩ => show win0_3.index t (0 : Fin 2) * 128 + 1 * k.val = k.val; omega
  | ⟨1, _⟩ => show win0_3.index t (1 : Fin 2) * 64 + 1 * q.val = q.val; omega

theorem emb_bias (t : Fin cfg0.N) (q : Fin 64) :
    ((cfg0.win 4).blk t).view.emb (ix1 q) = (ix1 q : S64.Idx) := by
  obtain ⟨-, -, -, -, -, -, -, -, e0, -⟩ := idx_facts t
  funext a; apply Fin.ext
  match a with
  | ⟨0, _⟩ => show win0_4.index t (0 : Fin 1) * 64 + 1 * q.val = q.val; omega

theorem emb_out (t : Fin cfg0.N) (p : Fin 5000) (r : Fin 100000) (hr : r.val = t.val * 5000 + p.val) (q : Fin 64) :
    ((cfg0.win 5).blk t).view.emb (ix2 p q) = (ix2 r q : S100000x64.Idx) := by
  obtain ⟨-, -, -, -, -, -, -, -, -, e0, e1, -⟩ := idx_facts t
  funext a; apply Fin.ext
  match a with
  | ⟨0, _⟩ => show win0_5.index t (0 : Fin 2) * 5000 + 1 * p.val = r.val; omega
  | ⟨1, _⟩ => show win0_5.index t (1 : Fin 2) * 64 + 1 * q.val = q.val; omega

/-! ## A block read at an entry is the array at the entry's place (for any array contents) -/

theorem read_sums (t : Fin cfg0.N) (p : Fin 5000) (r : Fin 100000) (hr : r.val = t.val * 5000 + p.val) (k : Fin 64)
    (A : S100000x64.Idx → EReal) :
    ((cfg0.win 0).blk t).view.read (Elt Ideal) A (ix2 p k : S5000x64.Idx) = A (ix2 r k : S100000x64.Idx) := by
  show A (((cfg0.win 0).blk t).view.emb (ix2 p k : S5000x64.Idx)) = _
  rw [emb_sums t p r hr k]

theorem read_counts (t : Fin cfg0.N) (p : Fin 5000) (r : Fin 100000) (hr : r.val = t.val * 5000 + p.val)
    (A : S100000x1.Idx → EReal) :
    ((cfg0.win 1).blk t).view.read (Elt Ideal) A (ix2 p (0 : Fin 1) : S5000x1.Idx) = A (ix2 r (0 : Fin 1) : S100000x1.Idx) := by
  show A (((cfg0.win 1).blk t).view.emb (ix2 p (0 : Fin 1) : S5000x1.Idx)) = _
  rw [emb_counts t p r hr]

theorem read_x (t : Fin cfg0.N) (p : Fin 5000) (r : Fin 100000) (hr : r.val = t.val * 5000 + p.val) (k : Fin 64)
    (A : S100000x64.Idx → EReal) :
    ((cfg0.win 2).blk t).view.read (Elt Ideal) A (ix2 p k : S5000x64.Idx) = A (ix2 r k : S100000x64.Idx) := by
  show A (((cfg0.win 2).blk t).view.emb (ix2 p k : S5000x64.Idx)) = _
  rw [emb_x t p r hr k]

theorem read_weights (t : Fin cfg0.N) (k : Fin 128) (q : Fin 64) (A : S128x64.Idx → EReal) :
    ((cfg0.win 3).blk t).view.read (Elt Ideal) A (ix2 k q : S128x64.Idx) = A (ix2 k q : S128x64.Idx) := by
  show A (((cfg0.win 3).blk t).view.emb (ix2 k q : S128x64.Idx)) = _
  rw [emb_weights t k q]

theorem read_bias (t : Fin cfg0.N) (q : Fin 64) (A : S64.Idx → EReal) :
    ((cfg0.win 4).blk t).view.read (Elt Ideal) A (ix1 q : S64.Idx) = A (ix1 q : S64.Idx) := by
  show A (((cfg0.win 4).blk t).view.emb (ix1 q : S64.Idx)) = _
  rw [emb_bias t q]

/-- The output block read at an entry of any array contents. -/
theorem read_out (t : Fin cfg0.N) (A : S100000x64.Idx → EReal) (y : S5000x64.Idx) :
    ((cfg0.win 5).blk t).view.read (Elt Ideal) A y = A (((cfg0.win 5).blk t).view.emb y) := rfl

/-! ## The staged tiles at an entry, as the layer's function needs them -/

/-- The sums' tile at (p, k): the segment sum for node r. -/
theorem blk_sums (c : Dev nD) (t : Fin cfg0.N) (p : Fin 5000) (r : Fin 100000) (hr : r.val = t.val * 5000 + p.val) (k : Fin 64) :
    iblk m c 0 t (ix2 p k : S5000x64.Idx) = Sage.summed (HostSide.ids m c) (HostSide.msg m c) r k :=
  (read_sums t p r hr k (V m c main_v16)).trans (HostSide.sums_apply m c r k)

/-- The counts' tile at (p, 0): the number of edges into node r. -/
theorem blk_counts (c : Dev nD) (t : Fin cfg0.N) (p : Fin 5000) (r : Fin 100000) (hr : r.val = t.val * 5000 + p.val) :
    iblk m c 1 t (ix2 p (0 : Fin 1) : S5000x1.Idx) = Sage.count (HostSide.ids m c) r :=
  (read_counts t p r hr (V m c main_v17)).trans (HostSide.counts_apply m c r)

/-- The tile of x at (p, k): x at node r. -/
theorem blk_x (c : Dev nD) (t : Fin cfg0.N) (p : Fin 5000) (r : Fin 100000) (hr : r.val = t.val * 5000 + p.val) (k : Fin 64) :
    iblk m c 2 t (ix2 p k : S5000x64.Idx) = m ((c : Thread nD τ).loc main_arg0) (ix2 r k : S100000x64.Idx) :=
  (read_x t p r hr k (V m c main_arg0)).trans (congrFun (V_main_arg0 m c) _)

/-- The stacked weights' tile, top half: `weight`. -/
theorem blk_wtop (c : Dev nD) (t : Fin cfg0.N) (k q : Fin 64) :
    iblk m c 3 t (ix2 (⟨k.val, by have := k.isLt; omega⟩ : Fin 128) q : S128x64.Idx)
      = m ((c : Thread nD τ).loc main_arg2) (ix2 k q : S64x64.Idx) :=
  (read_weights t _ q (V m c main_v18)).trans (HostSide.weights_top m c k q)

/-- The stacked weights' tile, bottom half: `root_weight`. -/
theorem blk_wbot (c : Dev nD) (t : Fin cfg0.N) (k q : Fin 64) :
    iblk m c 3 t (ix2 (⟨64 + k.val, by have := k.isLt; omega⟩ : Fin 128) q : S128x64.Idx)
      = m ((c : Thread nD τ).loc main_arg3) (ix2 k q : S64x64.Idx) :=
  (read_weights t _ q (V m c main_v18)).trans (HostSide.weights_bottom m c k q)

/-- The bias tile at q: the bias. -/
theorem blk_bias (c : Dev nD) (t : Fin cfg0.N) (q : Fin 64) :
    iblk m c 4 t (ix1 q : S64.Idx) = m ((c : Thread nD τ).loc main_arg4) (ix1 q : S64.Idx) :=
  (read_bias t q (V m c main_arg4)).trans (congrFun (V_main_arg4 m c) _)

/-! ## What a point writes back -/

/-- Entry y of the body's stored tile at point t is the layer's function at the entry's place in the array. -/
theorem stored_point (c : Dev nD) (t : Fin cfg0.N) (y : S5000x64.Idx) :
    k0_pay1 (iblk m c 1 t) (iblk m c 0 t) (iblk m c 2 t) (iblk m c 3 t) (iblk m c 4 t) y
      = result m c (((cfg0.win 5).blk t).view.emb y) := by
  obtain ⟨p, q, rfl⟩ : ∃ (p : Fin 5000) (q : Fin 64), y = ix2 p q := ⟨y 0, y 1, eq_ix2 y⟩
  have ht : t.val < 20 := (idx_facts t).2.2.2.2.2.2.2.2.2.2.2
  obtain ⟨r, hr⟩ : ∃ r : Fin 100000, r.val = t.val * 5000 + p.val := ⟨⟨t.val * 5000 + p.val, by have := p.isLt; omega⟩, rfl⟩
  refine (Tile.stored_apply (iblk m c 1 t) (iblk m c 0 t) (iblk m c 2 t) (iblk m c 3 t) (iblk m c 4 t) p q).trans ?_
  rw [emb_out t p r hr q]
  unfold result Sage.out Sage.denseAt
  refine congrArg₂ (· + ·) (congrArg₂ (· + ·) (Finset.sum_congr rfl fun k _ => ?_) (Finset.sum_congr rfl fun k _ => ?_))
    (blk_bias m c t q)
  · exact congrArg₂ (· * ·)
      (congrArg₂ Ideal.div (blk_sums m c t p r hr k) (congrArg (max · Sage.one) (blk_counts m c t p r hr)))
      (blk_wtop m c t k q)
  · exact congrArg₂ (· * ·) (blk_x m c t p r hr k) (blk_wbot m c t k q)

/-- WHAT POINT t WRITES BACK is block t of the layer's function. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S5000x64) hz, View.ld_unit_zero (S := S5000x1) hz, View.ld_unit_zero (S := S128x64) hz,
    View.ld_unit_zero (S := S64) hz1]
  funext j
  exact (stored_point m c t j).trans (read_out t (result m c) j).symm

/-! ## The blocks tile the array -/

/-- An index of the array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v19).slice (win0_5.rect t)).set ↔ _
  rw [View.set_slice_whole, Rect.mem_set_unit]
  exact Iff.rfl

/-- Row r of the output is in the block of the point that owns block row r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-! ## The array after the run, and the run -/

/-- THE OUTPUT ARRAY after the run is the layer's function. -/
theorem final (c : Dev nD) : (dats m 0 c).arrAt 5 cfg0.N = result m c :=
  (dats m 0 c).arrAt_eq_of_cover 5 (result m c) (fun t _ => flushed_eq m c t) cover

/-- The kernel's run: every weakly fair execution terminates with the output at the layer's function and the
    arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference's result, read through its generated stages, is the layer's function `Sage.out` of its arguments.

  The reference scatters the gathered messages (64 columns) and, separately, a vector of ones onto the target ids; each
  scatter read at an element is the start value plus a segment sum. It then divides by max(count, 1) spread over the 64
  features, takes the two 64-term matrix products, adds them and adds the bias spread down the rows. Read at (r, q) this
  is `Sage.denseAt` term for term; the only work is reading the stages at the right indices.
-/
import proofs.«121801_j58308476011187_2_alg».proof.Proof.Gen.ReferenceIdeal.Read
import proofs.«121801_j58308476011187_2_alg».proof.Proof.SageSpec
import proofs.«121801_j58308476011187_2_alg».proof.Proof.LibSegmentSum

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Lib.SegmentSum

/-- The target ids as the [E, 1] column both of the reference's scatters read. -/
abbrev ids (x1 : (⟨S2x1280000, .i32⟩ : BufTy).Contents (Elt Ideal)) : IVec ⟨2, ![1280000, 1]⟩ 32 :=
  val_main_v12 (F := Ideal) x1

/-- The gathered messages: row e is the row of x that edge e's source id names. -/
abbrev msg (x0 : (⟨S100000x64, .f32⟩ : BufTy).Contents (Elt Ideal)) (x1 : (⟨S2x1280000, .i32⟩ : BufTy).Contents (Elt Ideal)) :
    Sage.Mat 1280000 64 :=
  val_main_v10 (F := Ideal) x0 x1

/-! ## The splat constants at an index: the words for 0.0 and 1.0 -/

theorem zero64 (i : S100000x64.Idx) : val_main_v11 (F := Ideal) i = Sage.zero := by
  rw [val_main_v11_apply, val_main_cst_apply, Ideal.ofBits_def]
theorem zero1 (i : S100000.Idx) : val_main_v15 (F := Ideal) i = Sage.zero := by
  rw [val_main_v15_apply, val_main_cst_2_apply, Ideal.ofBits_def]
theorem ones1 (i : S1280000.Idx) : val_main_v14 (F := Ideal) i = Sage.one := by
  rw [val_main_v14_apply, val_main_cst_1_apply, Ideal.ofBits_def]
theorem one1 (i : S100000.Idx) : val_main_v18 (F := Ideal) i = Sage.one := by
  rw [val_main_v18_apply, val_main_cst_3_apply, Ideal.ofBits_def]

/-! ## The two scatters at an element -/

/-- The scatter of the messages at (r, k): the start value plus the segment sum of column k. -/
theorem summed_apply (x0 : (⟨S100000x64, .f32⟩ : BufTy).Contents (Elt Ideal)) (x1 : (⟨S2x1280000, .i32⟩ : BufTy).Contents (Elt Ideal))
    (r : Fin 100000) (k : Fin 64) :
    val_main_v13 (F := Ideal) x0 x1 (ix2 r k) = Sage.summed (ids x1) (msg x0 x1) r k := by
  unfold val_main_v13 Sage.summed
  refine (rows_apply_host scatter_S100000x64_S1280000x1_S1280000x64_1_0_0_1_wf scatter_S100000x64_S1280000x1_S1280000x64_1_0_0_1 rfl
    (val_main_v11 (F := Ideal)) (val_main_v12 (F := Ideal) x1) (val_main_v10 (F := Ideal) x0 x1) r k).trans ?_
  rw [zero64]

/-- The scatter of the ones at r: the start value plus a one for every edge into r. (Its ids column is a second
    broadcast of the same ids.) -/
theorem count_apply (x1 : (⟨S2x1280000, .i32⟩ : BufTy).Contents (Elt Ideal)) (r : Fin 100000) :
    val_main_v17 (F := Ideal) x1 (ix1 r) = Sage.count (ids x1) r := by
  unfold val_main_v17 Sage.count
  refine (flat_apply_host scatter_S100000_S1280000x1_S1280000_n_0_0_1_wf scatter_S100000_S1280000x1_S1280000_n_0_0_1 rfl
    (val_main_v15 (F := Ideal)) (val_main_v16 (F := Ideal) x1) (val_main_v14 (F := Ideal)) r).trans ?_
  rw [zero1]
  refine congrArg (Sage.zero + ·) ?_
  exact congrArg (fun f => segSum (val_main_v12 (F := Ideal) x1) f r) (funext fun e => ones1 (ix1 e))

/-! ## The result -/

/-- THE REFERENCE'S RESULT is the layer's function of its arguments. -/
theorem result_eq (x0 : (⟨S100000x64, .f32⟩ : BufTy).Contents (Elt Ideal)) (x1 : (⟨S2x1280000, .i32⟩ : BufTy).Contents (Elt Ideal))
    (x2 x3 : (⟨S64x64, .f32⟩ : BufTy).Contents (Elt Ideal)) (x4 : (⟨S64, .f32⟩ : BufTy).Contents (Elt Ideal)) :
    val_main_v28 (F := Ideal) x0 x1 x2 x3 x4 = Sage.out (ids x1) (msg x0 x1) x0 x2 x3 x4 := by
  funext i
  obtain ⟨r, q, rfl⟩ : ∃ (r : Fin 100000) (q : Fin 64), i = ix2 r q := ⟨i 0, i 1, eq_ix2 i⟩
  rw [val_main_v28_apply, val_main_v25_apply, val_main_v27_apply, val_main_v26_apply, val_main_v23_apply, val_main_v24_apply]
  unfold Sage.out Sage.denseAt
  have el : ∀ k : Fin 64, lidx_main_v23 (ix2 r q) k = ix2 r k := fun k => funext fun a => by
    match a with | ⟨0, _⟩ => rfl | ⟨1, _⟩ => rfl
  have er : ∀ k : Fin 64, ridx_main_v23 (ix2 r q) k = ix2 k q := fun k => funext fun a => by
    match a with | ⟨0, _⟩ => rfl | ⟨1, _⟩ => rfl
  have el' : ∀ k : Fin 64, lidx_main_v24 (ix2 r q) k = ix2 r k := fun k => funext fun a => by
    match a with | ⟨0, _⟩ => rfl | ⟨1, _⟩ => rfl
  have er' : ∀ k : Fin 64, ridx_main_v24 (ix2 r q) k = ix2 k q := fun k => funext fun a => by
    match a with | ⟨0, _⟩ => rfl | ⟨1, _⟩ => rfl
  have eb : idx_main_v26 (idx_main_v27 (ix2 r q)) = ix1 q := funext fun a => by
    match a with | ⟨0, _⟩ => rfl
  refine congrArg₂ (· + ·) (congrArg₂ (· + ·) (Finset.sum_congr rfl fun k _ => ?_) (Finset.sum_congr rfl fun k _ => ?_)) (congrArg x4 eb)
  · rw [el, er, val_main_v22_apply, val_main_v21_apply, val_main_v20_apply, val_main_v19_apply]
    have ec : idx_main_v20 (idx_main_v21 (ix2 r k)) = ix1 r := funext fun a => by
      match a with | ⟨0, _⟩ => rfl
    rw [ec, summed_apply, count_apply, one1, Ideal.hostDivf_def, Ideal.maximumf_def]
  · rw [el', er']

end Cert.ReferenceIdeal.RefValue

end
-- ==== Proof.Link.lean ====
/-
  The ids and the gathered messages are the same arrays in both programs.

  Both programs slice the two rows of the edge list, move negative source ids up by the number of nodes, gather the
  rows of x those ids name, and spread the target ids into a column — the same operations on the same arguments. So
  what the kernel's program holds for them when it launches is what the reference's stages compute.
-/
import proofs.«121801_j58308476011187_2_alg».proof.Proof.HostSide
import proofs.«121801_j58308476011187_2_alg».proof.Proof.RefValue

noncomputable section

namespace Cert.Link

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (c : Dev Cert.KernelIdeal.nD)

set_option maxHeartbeats 400000 in
/-- The target ids' column. -/
theorem ids_eq : Cert.KernelIdeal.HostSide.ids m c
    = Cert.ReferenceIdeal.RefValue.ids (m ((c : Thread Cert.KernelIdeal.nD Cert.KernelIdeal.τ).loc Cert.KernelIdeal.main_arg1)) := by
  unfold Cert.KernelIdeal.HostSide.ids
  dsimp only [Cert.KernelIdeal.Gen.V, Cert.KernelIdeal.Gen.hostOps0]
  after_results
  rfl

set_option maxHeartbeats 400000 in
/-- The gathered messages. -/
theorem msg_eq : Cert.KernelIdeal.HostSide.msg m c
    = Cert.ReferenceIdeal.RefValue.msg (m ((c : Thread Cert.KernelIdeal.nD Cert.KernelIdeal.τ).loc Cert.KernelIdeal.main_arg0))
        (m ((c : Thread Cert.KernelIdeal.nD Cert.KernelIdeal.τ).loc Cert.KernelIdeal.main_arg1)) := by
  unfold Cert.KernelIdeal.HostSide.msg
  dsimp only [Cert.KernelIdeal.Gen.V, Cert.KernelIdeal.Gen.hostOps0]
  after_results
  rfl

end Cert.Link

end
-- ==== Proof.lean ====
/- One GraphSAGE layer with mean aggregation: out[r] = mean over edges (r, j) of x[j] · weight + x[r] · root_weight + bias.

   The kernel's program gathers the messages, appends a column of ones and scatters the 65 columns onto the target ids
   in one accumulating scatter; a tiled kernel then normalises the sums by max(count, 1), sets them beside x and
   multiplies by the two weight matrices stacked into one 128-row matrix, adding the bias. The reference scatters the
   messages and a vector of ones separately, divides, and takes two 64-term products. On the extended reals both are
   the one function `Sage.out` of the arguments: an accumulating scatter adds column by column, so the 65-column
   scatter's columns are the two separate scatters (`LibSegmentSum`), and a sum over 128 stacked features is the sum of
   its two halves. Only associativity and commutativity of addition are used, so the precondition is never opened.
   The ideal pass rewrote nothing, so `preserves` asks nothing. -/
import proofs.«121801_j58308476011187_2_alg».proof.Defs
import proofs.«121801_j58308476011187_2_alg».proof.Proof.Gen.Kernel
import proofs.«121801_j58308476011187_2_alg».proof.Proof.Gen.Kernel.Skeleton
import proofs.«121801_j58308476011187_2_alg».proof.Proof.Gen.Kernel.Launch
import proofs.«121801_j58308476011187_2_alg».proof.Proof.Gen.Kernel.Points
import proofs.«121801_j58308476011187_2_alg».proof.Proof.Gen.Kernel.Frame
import proofs.«121801_j58308476011187_2_alg».proof.Proof.Gen.KernelIdeal
import proofs.«121801_j58308476011187_2_alg».proof.Proof.Gen.KernelIdeal.Skeleton
import proofs.«121801_j58308476011187_2_alg».proof.Proof.Gen.KernelIdeal.Launch
import proofs.«121801_j58308476011187_2_alg».proof.Proof.Gen.KernelIdeal.Points
import proofs.«121801_j58308476011187_2_alg».proof.Proof.Gen.KernelIdeal.Frame
import proofs.«121801_j58308476011187_2_alg».proof.Proof.Gen.ReferenceIdeal
import proofs.«121801_j58308476011187_2_alg».proof.Proof.Gen.KernelIdeal.Value
import proofs.«121801_j58308476011187_2_alg».proof.Proof.Gen.ReferenceIdeal.Run
import proofs.«121801_j58308476011187_2_alg».proof.Proof.Gen.ReferenceIdeal.Read
import proofs.«121801_j58308476011187_2_alg».proof.Proof.KernelValue
import proofs.«121801_j58308476011187_2_alg».proof.Proof.RefValue
import proofs.«121801_j58308476011187_2_alg».proof.Proof.Link
import proofs.«121801_j58308476011187_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the layer's function of arguments that agree: the kernel's output array by its blocks, the
    reference's result by its stages, and the ids and messages inside the function are the same arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Whole.result m c
  rw [Cert.ReferenceIdeal.Read.val_main_v28_eq, Cert.ReferenceIdeal.RefValue.result_eq,
    (hagree c).1, (hagree c).2.1, (hagree c).2.2.1, (hagree c).2.2.2.1, (hagree c).2.2.2.2]
  unfold Cert.KernelIdeal.Whole.result
  rw [Cert.Link.ids_eq, Cert.Link.msg_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
